-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256 : Shape := ⟨2, ![1, 256]⟩
abbrev S1048576x256 : Shape := ⟨2, ![1048576, 256]⟩
abbrev S_ : Shape := ⟨0, ![]⟩

class Facts : Prop where
  bcast_S_S1x256 : S_.BroadcastsInDim S1x256 (![] : Fin 0 → Fin S1x256.rank)
  reducesTo_S1x256_S_d0_1 : S1x256.ReducesTo [0, 1] S_
  h_S_ : 0 < S_.numel
  bcast_S_S1048576x256 : S_.BroadcastsInDim S1048576x256 (![] : Fin 0 → Fin S1048576x256.rank)
  reducesTo_S1048576x256_S_d0_1 : S1048576x256.ReducesTo [0, 1] S_

variable [Facts]

def fn {F : FTy → Type} [FloatOps F] (main_arg0 : FVec F S1x256 .f32) (main_arg1 : FVec F S1048576x256 .f32) : IVec S_ 1 :=
  let main_v0 : FVec F S1x256 .f32 := Host.absf main_arg0
  let main_cst : FVec F S_ .f32 := constant S_ .f32 0x7F800000#32
  let main_v1 : FVec F S1x256 .f32 := broadcastInDim S1x256 ![] bcast_S_S1x256 main_cst
  let main_v2 : IVec S1x256 1 := cmpf .olt main_v0 main_v1
  let main_c : IVec S_ 1 := constantI S_ 1 1#1
  let main_v3 : IVec S_ 1 := (fun x v => Host.reduce IntOp.andi x v reducesTo_S1x256_S_d0_1 h_S_) main_v2 main_c
  let main_v4 : FVec F S1048576x256 .f32 := Host.absf main_arg1
  let main_cst_0 : FVec F S_ .f32 := constant S_ .f32 0x7F800000#32
  let main_v5 : FVec F S1048576x256 .f32 := broadcastInDim S1048576x256 ![] bcast_S_S1048576x256 main_cst_0
  let main_v6 : IVec S1048576x256 1 := cmpf .olt main_v4 main_v5
  let main_c_1 : IVec S_ 1 := constantI S_ 1 1#1
  let main_v7 : IVec S_ 1 := (fun x v => Host.reduce IntOp.andi x v reducesTo_S1048576x256_S_d0_1 h_S_) main_v6 main_c_1
  let main_v8 : IVec S_ 1 := andi main_v3 main_v7
  main_v8
-- ==== Kernel.lean ====
abbrev S1x256 : Shape := ⟨2, ![1, 256]⟩
abbrev S1048576x256 : Shape := ⟨2, ![1048576, 256]⟩
abbrev S_ : Shape := ⟨0, ![]⟩
abbrev S1x1048576 : Shape := ⟨2, ![1, 1048576]⟩
abbrev S4096x256 : Shape := ⟨2, ![4096, 256]⟩
abbrev S1x4096 : Shape := ⟨2, ![1, 4096]⟩
abbrev S1048576 : Shape := ⟨1, ![1048576]⟩

abbrev nBuf : Space → Nat
  | .hbm => 6
  | .vmem => 6
  | .smem => 0
  | _ => 0

abbrev bufTy : (tb : Table) → Fin (tcTables nBuf tb) → BufTy
  | .hbm, ⟨0, _⟩ => ⟨S1x256, .f32⟩
  | .hbm, ⟨1, _⟩ => ⟨S1048576x256, .f32⟩
  | .hbm, ⟨2, _⟩ => ⟨S_, .f32⟩
  | .hbm, ⟨3, _⟩ => ⟨S1x256, .f32⟩
  | .hbm, ⟨4, _⟩ => ⟨S1x1048576, .f32⟩
  | .hbm, ⟨5, _⟩ => ⟨S1048576, .f32⟩
  | .local _ .vmem, ⟨0, _⟩ => ⟨S1x256, .f32⟩
  | .local _ .vmem, ⟨1, _⟩ => ⟨S1x256, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S1x4096, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1x256 : S_.BroadcastsInDim S1x256 (![] : Fin 0 → Fin S1x256.rank)
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  broadcasts_S1x256_S4096x256 : S1x256.Broadcasts S4096x256
  shapeCasts_S1x256_S1x256 : S1x256.ShapeCasts S1x256
  inb_S1x4096_S1x4096_0_0 : ∀ a, (![0, 0] : Fin 2 → Nat) a + S1x4096.size a ≤ S1x4096.size a
  h_S1x4096 : 0 < S1x4096.numel
  shapeCasts_S1x1048576_S1048576 : S1x1048576.ShapeCasts S1048576
  dot_S1x256_S4096x256_S1x4096_1_1_0_0_n_n_wf : DotDims.WF S1x256 S4096x256 S1x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x256.size a ≤ S1x256.size a
  hwx0_0 : ∀ i : grid0.Coords, EltTy.bits .f32 = 32 ∨ (Rect.block (s := S1x256) S1x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S1048576x256.size a
  hwx0_2 : ∀ i : grid0.Coords, EltTy.bits .f32 = 32 ∨ (Rect.block (s := S1048576x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x1048576.size a
  hwx0_3 : ∀ i : grid0.Coords, EltTy.bits .f32 = 32 ∨ (Rect.block (s := S1x1048576) S1x4096.size (cc0_transform_3 i) (hinb0_3 i)).WholeWords (EltTy.packing .f32)

variable [Facts₀]

def dot_S1x256_S4096x256_S1x4096_1_1_0_0_n_n : DotDims S1x256 S4096x256 S1x4096 where
  lhsContracting := [1]
  rhsContracting := [1]
  lhsNonContracting := [0]
  rhsNonContracting := [0]
  lhsBatch := []
  rhsBatch := []
  wf := dot_S1x256_S4096x256_S1x4096_1_1_0_0_n_n_wf

abbrev win0_0 : Pipeline.Window sig grid0 :=
  Pipeline.Window.ofSpec (Memref.whole main_arg0) S1x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x256 : Shape := ⟨2, ![1, 256]⟩
abbrev S1048576x256 : Shape := ⟨2, ![1048576, 256]⟩
abbrev S_ : Shape := ⟨0, ![]⟩
abbrev S1048576 : Shape := ⟨1, ![1048576]⟩

abbrev nBuf : Space → Nat
  | .hbm => 9
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1048576x256, .f32⟩
  | .hbm, ⟨2, _⟩ => ⟨S1048576x256, .f32⟩
  | .hbm, ⟨3, _⟩ => ⟨S1048576x256, .f32⟩
  | .hbm, ⟨4, _⟩ => ⟨S1048576x256, .f32⟩
  | .hbm, ⟨5, _⟩ => ⟨S_, .f32⟩
  | .hbm, ⟨6, _⟩ => ⟨S1048576, .f32⟩
  | .hbm, ⟨7, _⟩ => ⟨S1048576, .f32⟩
  | .hbm, ⟨8, _⟩ => ⟨S1048576, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S1x256_S1048576x256_0_1 : S1x256.BroadcastsInDim S1048576x256 (![0, 1] : Fin 2 → Fin S1048576x256.rank)
  reducesTo_S1048576x256_S1048576_d1 : S1048576x256.ReducesTo [1] S1048576
  h_S_ : 0 < S_.numel

variable [Facts₀]

class Facts : Prop extends Facts₀ where

variable [Facts]
-- ==== Proof.Distance.lean ====
/-
  The function both programs compute, at the ideal values.

  x is one row of 256 extended reals, w a table of 1048576 such rows.  For row n of the table,
      d²(n) = Σ_k (w(n, k) − x(0, k)) · (w(n, k) − x(0, k)),
  and the result at n is tanh (sqrt (d²(n))).  The result is laid out twice: as a [1, 1048576] row (what the
  blocks of the kernel's output array tile) and as a flat vector of 1048576 entries (the reshaped row, and what
  the reference returns).  A sum in which every term carries the factor 1 is the same sum: 1 · y = y for every
  extended real y, the infinities included, so no finiteness is needed anywhere.
-/
import Idealize.ShloMosaic.PureOps.Ideal
import Idealize.ShloMosaic.PureOps.Ideal.Laws
import Idealize.ShloMosaic.Lib.ValueIdx

noncomputable section

open scoped BigOperators

namespace Cert.Dist

open Idealize.ShloMosaic Idealize.ShloMosaic.ValueIdx

/-- The squared distance of row n of the table from the row x. -/
def sqDist (x : FVec Ideal ⟨2, ![1, 256]⟩ .f32) (w : FVec Ideal ⟨2, ![1048576, 256]⟩ .f32) (n : Fin 1048576) : EReal :=
  ∑ k : Fin 256, (w (ix2 n k) - x (ix2 0 k)) * (w (ix2 n k) - x (ix2 0 k))

/-- tanh of the distance of row n of the table from the row x. -/
def val (x : FVec Ideal ⟨2, ![1, 256]⟩ .f32) (w : FVec Ideal ⟨2, ![1048576, 256]⟩ .f32) (n : Fin 1048576) : EReal :=
  Ideal.tanh (Ideal.sqrt (sqDist x w n))

/-- The values as a [1, 1048576] row. -/
def row (x : FVec Ideal ⟨2, ![1, 256]⟩ .f32) (w : FVec Ideal ⟨2, ![1048576, 256]⟩ .f32) :
    FVec Ideal ⟨2, ![1, 1048576]⟩ .f32 := fun j => val x w (j 1)

/-- The values as a flat vector. -/
def flat (x : FVec Ideal ⟨2, ![1, 256]⟩ .f32) (w : FVec Ideal ⟨2, ![1048576, 256]⟩ .f32) :
    FVec Ideal ⟨1, ![1048576]⟩ .f32 := fun j => val x w (j 0)

/-- The f32 word of 1.0 is the real number 1. -/
theorem ofBits_one_f32 : Ideal.ofBits .f32 0x3F800000#32 = 1 := by
  simp [Ideal.ofBits, Ideal.ieee, -EReal.coe_mul]; norm_num

/-- A sum whose terms all carry the factor 1 is the sum of the terms. -/
theorem sum_one_mul {ι : Type} (s : Finset ι) (u : ι → EReal) (f : ι → EReal) (hu : ∀ k, u k = 1) :
    ∑ k ∈ s, u k * f k = ∑ k ∈ s, f k :=
  Finset.sum_congr rfl fun k _ => by rw [hu k, one_mul]

end Cert.Dist

end
-- ==== Proof.RefDistance.lean ====
/-
  The reference's result is the flat vector of tanh-distances.

  Read one operation at a time: the row x is repeated down the 1048576 rows, subtracted from the table, the
  difference squared, the squares of each row summed from the initial value 0 along the 256 columns, and the
  host's square root and tanh applied.  At the ideal values the host's square root and tanh are the same
  functions as the kernel's, 0 + s = s, and the sum over the reduced axis at row n runs over the entries (n, k).
-/
import proofs.«172501_j53429393162997_2_alg».proof.Proof.Gen.ReferenceIdeal.Read
import proofs.«172501_j53429393162997_2_alg».proof.Proof.Distance

noncomputable section

open scoped BigOperators

namespace Cert.RefDist

open Idealize.ShloMosaic Idealize.ShloMosaic.ValueIdx Cert.ReferenceIdeal Cert.ReferenceIdeal.Read

/-- The index the row sum reads at row n and column k is the entry (n, k). -/
theorem idx_sum (n : Fin 1048576) (k : Fin 256) : idx_main_v3 (ix1 n) k = ix2 n k :=
  funext fun a => Fin.ext (by match a with | ⟨0, _⟩ => rfl | ⟨1, _⟩ => rfl)

/-- The repeated row at entry (n, k) reads x at (0, k). -/
theorem idx_bcast (n : Fin 1048576) (k : Fin 256) : idx_main_v0 (ix2 n k) = ix2 0 k :=
  funext fun a => Fin.ext (by match a with | ⟨0, _⟩ => rfl | ⟨1, _⟩ => rfl)

/-- The reference's last stage is the flat vector of tanh-distances of the table's rows from x. -/
theorem ref_eq (x : (⟨S1x256, .f32⟩ : BufTy).Contents (Elt Ideal)) (w : (⟨S1048576x256, .f32⟩ : BufTy).Contents (Elt Ideal)) :
    val_main_v5 (F := Ideal) x w = Dist.flat x w := by
  funext i
  obtain ⟨n, rfl⟩ : ∃ n : Fin 1048576, i = ix1 n := ⟨i 0, eq_ix1 i⟩
  rw [val_main_v5_apply, val_main_v4_apply, val_main_v3_apply]
  simp only [val_main_v2_apply, val_main_v1_apply, val_main_v0_apply, val_main_cst_apply, idx_sum, idx_bcast,
    Ideal.hostUnary_tanh_def, Ideal.hostUnary_sqrt_def, Ideal.mulf_def, Ideal.subf_def, Ideal.ofBits_def,
    Ideal.ofBits_zero_f32, zero_add]
  rfl

end Cert.RefDist

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.Payload.lean ====
/-
  What the kernel body stores, read at one entry.

  The body loads a block v0 of 4096 rows of the table, the row v1 = x and a row v5 of weights, repeats v1 down the
  4096 rows, subtracts, squares, and multiplies the weight row against the squares with the 256 columns of both
  contracted into a zero accumulator; then the square root and tanh.  Entry (0, q) of the product is
  Σ_k v5(0, k) · (v0(q, k) − v1(0, k))², so the stored row at (0, q) is tanh (sqrt of that sum).  When the weights
  are all 1 and row q of the block is row n of the table, that is tanh of the distance of row n from x.
-/
import proofs.«172501_j53429393162997_2_alg».proof.Proof.Gen.KernelIdeal.Skeleton
import proofs.«172501_j53429393162997_2_alg».proof.Proof.Distance
import proofs.«172501_j53429393162997_2_alg».proof.Proof.LibRowOps
import Idealize.ShloMosaic.Lib.Pipeline.Value
import Idealize.ShloMosaic.Lib.ValueIdx

noncomputable section

open scoped BigOperators

namespace Cert.KernelIdeal.Body

open Idealize.ShloMosaic Idealize.ShloMosaic.ValueIdx Cert.KernelIdeal Cert.KernelIdeal.Gen

/-- The product's dimension numbers: [1, 256] × [4096, 256] → [1, 4096], axis 1 of both operands contracted. -/
abbrev D : DotDims S1x256 S4096x256 S1x4096 := dot_S1x256_S4096x256_S1x4096_1_1_0_0_n_n

theorem D_rank : D.contr.rank = 1 := rfl

theorem D_size : D.contr.size ⟨0, by rw [D_rank]; exact Nat.one_pos⟩ = 256 := rfl

/-- The left operand's row coordinate is the result's row coordinate. -/
theorem D_lhs0 (i : S1x4096.Idx) (c : D.contr.Idx) : (D.lhsIdx i c 0).val = (i 0).val := by
  have h1 : (D.lhsIdx i c 0).val < 1 := (D.lhsIdx i c 0).isLt
  have h2 : (i 0).val < 1 := (i 0).isLt
  omega

/-- The right operand's row coordinate is the result's column coordinate. -/
theorem D_rhs0 (i : S1x4096.Idx) (c : D.contr.Idx) : (D.rhsIdx i c 0).val = (i 1).val := by
  simp [DotDims.rhsIdx, D, dot_S1x256_S4096x256_S1x4096_1_1_0_0_n_n]
  rfl

/-- The row v1 repeated down 4096 rows, at (q, k), is v1 at (0, k). -/
theorem repeat_apply (v1 : Vec Ideal S1x256 .f32) (q : Fin 4096) (k : Fin 256) :
    broadcastTo S4096x256 v1 broadcasts_S1x256_S4096x256 (ix2 q k) = v1 (ix2 0 k) :=
  broadcastTo_apply v1 broadcasts_S1x256_S4096x256 (ix2 q k) (ix2 0 k) fun a => by
    match a with
    | ⟨0, _⟩ => show 0 = if (1 : Nat) = 1 then 0 else _; rw [if_pos rfl]
    | ⟨1, _⟩ => show k.val = if (256 : Nat) = 1 then 0 else _; rw [if_neg (by decide)]; rfl

/-- The stored row at (0, q): tanh of the square root of the weighted sum of squared differences of row q. -/
theorem pay_apply (v0 : Vec Ideal S4096x256 .f32) (v1 v5 : Vec Ideal S1x256 .f32) (q : Fin 4096) :
    k0_pay1 (F := Ideal) v0 v1 v5 (ix2 0 q)
      = Ideal.tanh (Ideal.sqrt (∑ k : Fin 256,
          v5 (ix2 0 k) * ((v0 (ix2 q k) - v1 (ix2 0 k)) * (v0 (ix2 q k) - v1 (ix2 0 k))))) := by
  unfold k0_pay1
  show Ideal.tanh (Ideal.sqrt (matmul (F := Ideal) D none (shapeCast S1x256 v5 shapeCasts_S1x256_S1x256)
      (mulf (subf v0 (broadcastTo S4096x256 v1 broadcasts_S1x256_S4096x256))
        (subf v0 (broadcastTo S4096x256 v1 broadcasts_S1x256_S4096x256)))
      (constant (F := Ideal) S1x4096 .f32 0x00000000#32) (ix2 0 q))) = _
  refine congrArg (fun s => Ideal.tanh (Ideal.sqrt s)) ?_
  refine (Cert.LibRow.matmul_zero_nt_ix2 D rfl rfl D_rank D_size D_lhs0 D_rhs0 none _ _ 0 q).trans ?_
  refine Finset.sum_congr rfl fun k _ => ?_
  rw [shapeCast_self, mulf_apply, subf_apply, repeat_apply]

/-- With weights all 1, a block row q that is the table's row (i 1), and v1 the row x: the stored row at j is the
    row of tanh-distances at i. -/
theorem pay_row (v0 : Vec Ideal S4096x256 .f32) (v1 v5 : Vec Ideal S1x256 .f32)
    (X : FVec Ideal ⟨2, ![1, 256]⟩ .f32) (W : FVec Ideal ⟨2, ![1048576, 256]⟩ .f32)
    (j : S1x4096.Idx) (i : S1x1048576.Idx)
    (h0 : ∀ k : Fin 256, v0 (ix2 (j 1) k) = W (ix2 (i 1) k))
    (h1 : ∀ k : Fin 256, v1 (ix2 0 k) = X (ix2 0 k))
    (h5 : ∀ k : Fin 256, v5 (ix2 0 k) = 1) :
    k0_pay1 (F := Ideal) v0 v1 v5 j = Dist.row X W i := by
  have h0' : j 0 = (0 : Fin 1) := Fin.ext (Nat.lt_one_iff.mp (j 0).isLt)
  have hj : j = ix2 0 (j 1) := (eq_ix2 j).trans (congrArg (fun a : Fin 1 => ix2 a (j 1)) h0')
  refine (congrArg (k0_pay1 (F := Ideal) v0 v1 v5) hj).trans ?_
  refine (pay_apply v0 v1 v5 (j 1)).trans ?_
  unfold Dist.row Dist.val Dist.sqDist
  refine congrArg (fun s => Ideal.tanh (Ideal.sqrt s)) ?_
  refine (Dist.sum_one_mul _ _ _ h5).trans (Finset.sum_congr rfl fun k _ => ?_)
  rw [h0 k, h1 k]

end Cert.KernelIdeal.Body

end
-- ==== Proof.Blocks.lean ====
/-
  From the blocks the grid points write back to the whole output row.

  The grid has 256 points.  Point t stages the whole row x (window 0), the whole row of weights (window 1), rows
  4096·t … 4096·t + 4095 of the table (window 2), and writes back columns 4096·t … 4096·t + 4095 of the
  [1, 1048576] output row (window 3).  The weight row was filled with the constant 1 before the region.  So what
  point t writes back is block t of ONE function of the argument arrays — the row of tanh-distances — and since
  the 256 blocks of 4096 columns tile the 1048576 columns, the output row after the run is that function.
-/
import proofs.«172501_j53429393162997_2_alg».proof.Proof.Gen.KernelIdeal.Frame
import proofs.«172501_j53429393162997_2_alg».proof.Proof.Payload
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The printed index maps over the grid: windows 0 and 1 always stage block (0, 0); window 2's row block is
    window 3's column block; window 3 stays in row block 0. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = win0_3.index t (1 : Fin 2) ∧ win0_2.index t (1 : Fin 2) = 0
    ∧ win0_3.index t (0 : Fin 2) = 0 ∧ win0_3.index t (1 : Fin 2) ≤ 255 :=
  (by decide +kernel : ∀ t : Fin grid0.N, _)

/-- Every column block of the output row is some point's. -/
theorem idx_onto : ∀ q : Fin 256, ∃ t : Fin cfg0.N, win0_3.index t = ![0, q.val] :=
  (by decide +kernel : ∀ q : Fin 256, ∃ t : Fin grid0.N, win0_3.index t = ![0, q.val])

/-- The weight row, as the region finds it, holds 1 everywhere: the constant 1.0 repeated. -/
theorem weights_one (c : Dev nD) (y : S1x256.Idx) : (V m c main_v0 : S1x256.Idx → EReal) y = (1 : EReal) := by
  have e : (V m c main_v0 : S1x256.Idx → EReal)
      = broadcastInDim S1x256 ![] bcast_S_S1x256 (constant (F := Ideal) S_ .f32 0x3F800000#32) := by
    show StableHlo.after hostOps0 (fun b => m (c, b)) (Proc.devRef .tc main_v0) = _
    after_results
  rw [e]
  exact Dist.ofBits_one_f32

/-- What point t writes back is block t of the row of tanh-distances of the table's rows from x. -/
theorem flushed_eq (c : Dev nD) (t : Fin cfg0.N) :
    (dats m 0 c).flushed 3 t
      = ((cfg0.win 3).blk t).view.read (Elt Ideal) (Dist.row (V m c main_arg0) (V m c main_arg1)) := by
  show (cfg0.win 3).cut (grid0.coords t) ((dats m 0 c).after 3 t) = _
  rw [after0_3]
  unfold out0_3
  rw [View.canon_unit_zero zero_offsets]
  simp only [View.ld_unit_zero (S := S4096x256) zero_offsets, View.ld_unit_zero (S := S1x256) zero_offsets]
  obtain ⟨e0, e1, e2, e3, e4, e5, e6, e7⟩ := idx_facts t
  funext j
  show k0_pay1 (F := Ideal) (iblk m c 2 t) (iblk m c 0 t) (iblk m c 1 t) j
    = Dist.row (V m c main_arg0) (V m c main_arg1) (((cfg0.win 3).blk t).view.emb j)
  refine Body.pay_row (iblk m c 2 t) (iblk m c 0 t) (iblk m c 1 t) (V m c main_arg0) (V m c main_arg1) j
    (((cfg0.win 3).blk t).view.emb j) ?_ ?_ ?_
  · intro k
    show V m c main_arg1 (((cfg0.win 2).blk t).view.emb (ix2 (j 1) k)) = V m c main_arg1 _
    refine congrArg (V m c main_arg1) (funext fun a => Fin.ext ?_)
    match a with
    | ⟨0, _⟩ =>
      show win0_2.index t (0 : Fin 2) * 4096 + 1 * (j 1).val = win0_3.index t (1 : Fin 2) * 4096 + 1 * (j 1).val
      omega
    | ⟨1, _⟩ =>
      show win0_2.index t (1 : Fin 2) * 256 + 1 * k.val = k.val
      omega
  · intro k
    show V m c main_arg0 (((cfg0.win 0).blk t).view.emb (ix2 0 k)) = V m c main_arg0 _
    refine congrArg (V m c main_arg0) (funext fun a => Fin.ext ?_)
    match a with
    | ⟨0, _⟩ =>
      show win0_0.index t (0 : Fin 2) * 1 + 1 * 0 = 0
      omega
    | ⟨1, _⟩ =>
      show win0_0.index t (1 : Fin 2) * 256 + 1 * k.val = k.val
      omega
  · intro k
    exact weights_one m c _

/-- An index of the output row is in point t's block iff each coordinate is in the block's range on its axis. -/
theorem mem_blk (t : Fin cfg0.N) (i : S1x1048576.Idx) :
    i ∈ ((cfg0.win 3).blk t).view.set ↔ ∀ a : Fin 2, win0_3.index t a * S1x4096.size a ≤ (i a).val
      ∧ (i a).val < win0_3.index t a * S1x4096.size a + S1x4096.size a := by
  show i ∈ ((View.whole main_v1).slice (win0_3.rect t)).set ↔ _
  rw [View.set_slice_whole, Rect.mem_set_unit]
  exact Iff.rfl

/-- Every column of the output row lies in the block of the point numbered by the column divided by 4096. -/
theorem cover (i : S1x1048576.Idx) :
    ∃ t : Fin cfg0.N, (cfg0.win 3).flush t = true ∧ i ∈ ((cfg0.win 3).blk t).view.set := by
  have hi0 : (i 0).val < 1 := (i 0).isLt
  have hi1 : (i 1).val < 1048576 := (i 1).isLt
  obtain ⟨t, ht⟩ := idx_onto ⟨(i 1).val / 4096, by omega⟩
  have q0 : win0_3.index t (0 : Fin 2) = 0 := congrFun ht 0
  have q1 : win0_3.index t (1 : Fin 2) = (i 1).val / 4096 := congrFun ht 1
  refine ⟨t, flush0_3 t, ?_⟩
  rw [mem_blk]
  intro a
  match a with
  | ⟨0, _⟩ =>
    show win0_3.index t (0 : Fin 2) * 1 ≤ (i 0).val ∧ (i 0).val < win0_3.index t (0 : Fin 2) * 1 + 1
    omega
  | ⟨1, _⟩ =>
    show win0_3.index t (1 : Fin 2) * 4096 ≤ (i 1).val ∧ (i 1).val < win0_3.index t (1 : Fin 2) * 4096 + 4096
    omega

/-- The output row after the run is the row of tanh-distances of the table's rows from x, of the arguments as
    launched. -/
theorem final (c : Dev nD) :
    (dats m 0 c).arrAt 3 cfg0.N
      = Dist.row (m ((c : Thread nD τ).loc main_arg0)) (m ((c : Thread nD τ).loc main_arg1)) := by
  rw [(dats m 0 c).arrAt_eq_of_cover 3 _ (fun t _ => flushed_eq m c t) cover, V_main_arg0, V_main_arg1]

end Cert.KernelIdeal.Blocks

end
-- ==== Proof.KernelRun.lean ====
/-
  The kernel program's result.

  After the region the program reshapes the [1, 1048576] output row into a flat vector of 1048576 entries: entry n
  of the flat vector is entry (0, n) of the row, both being position n in row-major order.  The row after the run
  is the row of tanh-distances, so the result is the flat vector of tanh-distances; the argument arrays are staged
  inputs of the region and end as launched.
-/
import proofs.«172501_j53429393162997_2_alg».proof.Proof.Blocks
import Idealize.ShloMosaic.Lib.Pipeline.FrameSuffix
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- What the line after the region leaves in the result buffer: the flat vector of tanh-distances. -/
theorem tail_eq (c : Dev nD) :
    Pipeline.afterTail₀ cfgs (dats m) 0 (V0 m) [hostOps1] c main_v2
      = Dist.flat (m ((c : Thread nD τ).loc main_arg0)) (m ((c : Thread nD τ).loc main_arg1)) := by
  unfold Pipeline.afterTail₀
  show StableHlo.after hostOps1 _ (Proc.devRef .tc main_v2) = _
  after_results
  funext i
  obtain ⟨n, rfl⟩ : ∃ n : Fin 1048576, i = ix1 n := ⟨i 0, eq_ix1 i⟩
  show shapeCast S1048576 (Pipeline.withArrays spec0 c (V0 m c) (fun w => (dats m 0 c).arrAt w cfg0.N)
      (Proc.devRef .tc main_v1)) shapeCasts_S1x1048576_S1048576 (ix1 n) = _
  have hrow := (Pipeline.withArrays_arr spec0 launch0.win.arr_inj c (V0 m c)
    (fun w => (dats m 0 c).arrAt w cfg0.N) 3).trans (Blocks.final m c)
  refine (shapeCast_apply _ shapeCasts_S1x1048576_S1048576 (ix1 n) (ix2 0 n) ?_).trans ?_
  · rw [Shape.rowMajor_val_two, Shape.rowMajor_val_one]
    show 0 * 1048576 + n.val = n.val
    omega
  · exact congrFun hrow (ix2 0 n)

/-- Every weakly fair execution of the kernel program ends with the result buffer at the flat vector of
    tanh-distances of the table's rows from x, and the arguments as launched. -/
theorem run : θ_run defs (onTc (τ := τ) (main (F := Ideal))) ⟨m, fun _ => 0, ρ⟩ fun r => ∀ c : Dev nD,
      r.2.mem ((c.tc : Thread nD τ).loc main_v2)
        = Dist.flat (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 rfl (by decide))).trans (tail_eq m c),
       ((h c).1 0).trans (((dats m 0 c).arrAt_in 0 rfl _).trans ((A_eq m c 0).trans (V_main_arg0 m c))),
       ((h c).1 2).trans (((dats m 0 c).arrAt_in 2 rfl _).trans ((A_eq m c 2).trans (V_main_arg1 m c)))⟩)
    (run_main m ρ)

end Cert.KernelIdeal.Result

end
-- ==== Proof.lean ====
/-
  Broadcast L2 distance, square root, tanh: the kernel against its jnp reference, over the extended reals.

  x is one row of 256 numbers and w a table of 1048576 rows of 256.  Both programs return, for every row n of the
  table, tanh (sqrt (Σ_k (w(n, k) − x(0, k))²)).

  The reference subtracts the repeated row from the whole table, squares, sums each row from 0 and applies the
  host's square root and tanh.  The kernel walks the table in 256 blocks of 4096 rows; on each block it forms the
  same squared differences and obtains the row sums as a product of a row of ones with the transposed block,
  accumulated from zero, then takes the square root and tanh and writes 4096 columns of a [1, 1048576] row, which
  the program finally reshapes into a flat vector.  At the ideal values the product's entry (0, q) is
  Σ_k 1 · (…)², and 1 · y = y for every extended real y, so the two sums are the same sum; the square root and
  tanh of the two sides are one function each; 0 + s = s.  No step uses that the inputs are finite.

  The modules: Distance (the function, as a row and as a flat vector), RefDistance (the reference's stages read at
  an index give the flat vector), Payload (the value the kernel body stores, at an index), Blocks (what each grid
  point writes back is a block of the row, and the blocks tile it), KernelRun (the reshape after the region, and the
  kernel program's run).  The three frames are the generated frame runs; the idealization rewrote nothing.
-/
import proofs.«172501_j53429393162997_2_alg».proof.Defs
import proofs.«172501_j53429393162997_2_alg».proof.Proof.Gen.Kernel
import proofs.«172501_j53429393162997_2_alg».proof.Proof.Gen.Kernel.Skeleton
import proofs.«172501_j53429393162997_2_alg».proof.Proof.Gen.Kernel.Launch
import proofs.«172501_j53429393162997_2_alg».proof.Proof.Gen.Kernel.Points
import proofs.«172501_j53429393162997_2_alg».proof.Proof.Gen.Kernel.Frame
import proofs.«172501_j53429393162997_2_alg».proof.Proof.Gen.KernelIdeal
import proofs.«172501_j53429393162997_2_alg».proof.Proof.Gen.KernelIdeal.Skeleton
import proofs.«172501_j53429393162997_2_alg».proof.Proof.Gen.KernelIdeal.Launch
import proofs.«172501_j53429393162997_2_alg».proof.Proof.Gen.KernelIdeal.Points
import proofs.«172501_j53429393162997_2_alg».proof.Proof.Gen.KernelIdeal.Frame
import proofs.«172501_j53429393162997_2_alg».proof.Proof.Gen.ReferenceIdeal
import proofs.«172501_j53429393162997_2_alg».proof.Proof.Gen.ReferenceIdeal.Run
import proofs.«172501_j53429393162997_2_alg».proof.Proof.Gen.ReferenceIdeal.Read
import proofs.«172501_j53429393162997_2_alg».proof.Proof.Gen.Pre_finite_inputs
import proofs.«172501_j53429393162997_2_alg».proof.Proof.RefDistance
import proofs.«172501_j53429393162997_2_alg».proof.Proof.KernelRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read at the ideal values. -/
theorem frame_kernel_ideal : Cert.frame_KernelIdeal := fun m ρ _ => Cert.KernelIdeal.Gen.frame m ρ

/-- The reference runs and leaves its arguments as launched: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and w, both programs end with the flat vector of tanh-distances of the table's rows
    from x in their result buffers. -/
theorem algebraic : Cert.algebraic_KernelIdeal_ReferenceIdeal := by
  intro m ρ m' ρ' _ hagree
  refine ⟨fun c => Cert.Dist.flat (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RefDist.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
